-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096x1 : Shape := ⟨2, ![4096, 1]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S1024x4096 .f32) (main_arg1 : FVec F S4096x4096 .f32) (main_arg2 : FVec F S4096x1 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S1024x256 : Shape := ⟨2, ![1024, 256]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x1, .f32⟩
  | .hbm, ⟨3, _⟩ => ⟨S1x4096, .f32⟩
  | .hbm, ⟨4, _⟩ => ⟨S1024x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c1_i32_11 : BitVec 32 := 1#32
  let v23 : BitVec 1 := Scalar.cmpi .eq v22 c1_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c0_i32_5 : BitVec 32 := 0#32
  let c0_i32_6 : BitVec 32 := 0#32
  ![v17.toNat, c0_i32_5.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli c2_i32_4 v16
  let c1_i32_5 : BitVec 32 := 1#32
  let v18 : BitVec 32 := Scalar.addi v17 c1_i32_5
  let c0_i32_6 : BitVec 32 := 0#32
  let c0_i32_7 : BitVec 32 := 0#32
  ![v18.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x1_S1x4096 : S4096x1.ShapeCasts S1x4096
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1024x256_S512x256_0_0 : ∀ a, (![0, 0] : Fin 2 → Nat) a + S512x256.size a ≤ S1024x256.size a
  h_S512x256 : 0 < S512x256.numel
  inb_S1024x256_S512x256_512_0 : ∀ a, (![512, 0] : Fin 2 → Nat) a + S512x256.size a ≤ S1024x256.size a
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S1024x4096.size a
  hwx0_0 : ∀ i : grid0.Coords, EltTy.bits .f32 = 32 ∨ (Rect.block (s := S1024x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S1024x4096.size a
  hwx0_1 : ∀ i : grid0.Coords, EltTy.bits .f32 = 32 ∨ (Rect.block (s := S1024x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x4096.size a
  hwx0_5 : ∀ i : grid0.Coords, EltTy.bits .f32 = 32 ∨ (Rect.block (s := S1024x4096) S1024x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096x1 : Shape := ⟨2, ![4096, 1]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x1, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S4096x1_S4096x1024_0_1 : S4096x1.BroadcastsInDim S4096x1024 (![0, 1] : Fin 2 → Fin S4096x1024.rank)
  transposes_S4096x1024_S1024x4096_1_0 : S4096x1024.Transposes [1, 0] S1024x4096
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Kit.lean ====
/-
  The printed kernel's region as the launch finds it.

  @main is one host reshape (the bias column [4096, 1] read as a row [1, 4096]) and then the region. This module
  names the contents of every TensorCore buffer when the region is entered (the launch contents after the reshape),
  shows that no argument array is touched by the reshape, names each window's block at a grid point, and decides,
  over the sixteen grid points, the two branch conditions of the body: the first branch is taken exactly at the
  even points and the second exactly at the odd ones, so the output window is stored into at every point.
-/
import proofs.«106673_g1915555414388_cont_8to1_1657_17_alg».proof.Proof.Gen.Kernel.Launch
import proofs.«106673_g1915555414388_cont_8to1_1657_17_alg».proof.Proof.Gen.Kernel.Points
import proofs.«106673_g1915555414388_cont_8to1_1657_17_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- What each TensorCore buffer of core c holds at the moment the region starts: its launch contents, but for the
    bias row, which the reshape has just written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the reshape, then the region entered holding the buffers at V. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: x is as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- the weight is as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- and so is the bias column. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- The part of window w's array that its index map selects at grid point t, the array's contents taken at the start
    of the region. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches, over the grid -/

/-- The first branch is taken exactly at the even points, -/
theorem hcond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second exactly at the odd ones; -/
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
/-- so one of them is taken at every point: the output window is idle nowhere. -/
theorem idle5 : ∀ t : Fin cfg0.N, cfg0.idle 5 (grid0.coords t) = false :=
  (by decide +kernel : ∀ t : Fin grid0.N, idle0 5 (grid0.coords t) = false)

end Cert.Kernel.Hand

end
-- ==== Proof.K.Body.lean ====
/-
  The body of the printed kernel at one grid point.

  At a point the body takes one of two branches — the even points read the weight tile staged by the window of
  even tiles, the odd points the one staged by the window of odd tiles — and in either it does the same thing:
  it loads the two row-halves of x (512 rows each, all 4096 columns), the 256 weight rows of the point's tile and
  the 256 bias entries of the tile, and stores into the output block [1024, 256] two pieces: rows 0..511 hold
  (first half of x)·(tile)ᵀ + bias row, rows 512..1023 hold (second half of x)·(tile)ᵀ + bias row. The two
  stores tile the block, so what the block holds afterwards is a function of the four loaded values alone.
-/
import proofs.«106673_g1915555414388_cont_8to1_1657_17_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- A whole half of x, a whole weight tile, a whole bias tile; the upper and the lower half of the output block. -/
abbrev rX : Rect S512x4096 := Rect.unit (s := S512x4096) ![0, 0] S512x4096.size inb_S512x4096_S512x4096_0_0
abbrev rW : Rect S256x4096 := Rect.unit (s := S256x4096) ![0, 0] S256x4096.size inb_S256x4096_S256x4096_0_0
abbrev rB : Rect S1x256 := Rect.unit (s := S1x256) ![0, 0] S1x256.size inb_S1x256_S1x256_0_0
abbrev rLo : Rect S1024x256 := Rect.unit (s := S1024x256) ![0, 0] S512x256.size inb_S1024x256_S512x256_0_0
abbrev rHi : Rect S1024x256 := Rect.unit (s := S1024x256) ![512, 0] S512x256.size inb_S1024x256_S512x256_512_0

/-! ## What the body leaves in the output block -/

/-- The output block after the body, from the two halves of x, the weight tile and the bias tile: the second
    store (rows 512..1023) laid over the first (rows 0..511). -/
def outBlk (x0 x1 : Vec F S512x4096 .f32) (w : Vec F S256x4096 .f32) (b : Vec F S1x256 .f32) : Vec F S1024x256 .f32 :=
  View.canon [⟨rHi, k0_pay2 (View.ld x1 rX) (View.ld w rW) (View.ld b rB)⟩, ⟨rLo, k0_pay1 (View.ld x0 rX) (View.ld w rW) (View.ld b rB)⟩]

/-- The two halves tile the block, so every index of it lies in one of them. -/
theorem cover_out (p1 p0 : Vec F S512x256 .f32) (y : S1024x256.Idx) :
    ∃ pc ∈ ([⟨rHi, p1⟩, ⟨rLo, p0⟩] : List (View.Piece (Elt F) S1024x256 .f32)), y ∈ pc.1.set :=
  View.cover_of_tiled [⟨rHi, p1⟩, ⟨rLo, p0⟩] S512x256.size (by rfl) y

/-! ## The body's triple, branch by branch -/

set_option maxHeartbeats 1000000 in
/-- At a point where the first branch is taken (and the second is not): the body runs on whole staging buffers —
    the halves of x, the even-tile weight buffer and the bias buffer at read contents, the output buffer at
    anything — to the continuation holding the inputs as they were and the output block at outBlk of them. -/
theorem sound_even (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S1x256 .f32) (harg5 : arg5.IsWhole) (arg6 : Memref sig .tc .vmem S1024x256 .f32) (harg6 : arg6.IsWhole)
    (hc1 : k0_cond1 i = 1#1) (hc2 : ¬ k0_cond2 i = 1#1)
    (x0 x1 : Vec F S512x4096 .f32) (w : Vec F S256x4096 .f32) (b : Vec F S1x256 .f32) (K : PUnit → sProp 𝕄) :
    iprop(owns (c : Thread nD τ) arg1 fullShare x0 ∗ owns (c : Thread nD τ) arg2 fullShare x1 ∗ owns (c : Thread nD τ) arg3 fullShare w
        ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg3 fullShare w
            ∗ owns (c : Thread nD τ) arg5 fullShare b ∗ owns (c : Thread nD τ) arg6 fullShare (outBlk x0 x1 w b)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f4, %hf4, H4⟩, ⟨%d5, %f5, -, H5⟩, Hk⟩
  subst hf0 hf1 hf2 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  iexists _; isplitr
  swap; · iexact H5
  ipureintro
  exact View.read_writes_eq_canon _ _ _ (cover_out _ _)

set_option maxHeartbeats 1000000 in
/-- At a point where the second branch is taken (and the first is not): the same, the weight tile read from the
    odd-tile weight buffer. The two branches compute the same function of what they load. -/
theorem sound_odd (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S1x256 .f32) (harg5 : arg5.IsWhole) (arg6 : Memref sig .tc .vmem S1024x256 .f32) (harg6 : arg6.IsWhole)
    (hc1 : ¬ k0_cond1 i = 1#1) (hc2 : k0_cond2 i = 1#1)
    (x0 x1 : Vec F S512x4096 .f32) (w : Vec F S256x4096 .f32) (b : Vec F S1x256 .f32) (K : PUnit → sProp 𝕄) :
    iprop(owns (c : Thread nD τ) arg1 fullShare x0 ∗ owns (c : Thread nD τ) arg2 fullShare x1 ∗ owns (c : Thread nD τ) arg4 fullShare w
        ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg4 fullShare w
            ∗ owns (c : Thread nD τ) arg5 fullShare b ∗ owns (c : Thread nD τ) arg6 fullShare (outBlk x0 x1 w b)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f3, %hf3, H3⟩, ⟨%f4, %hf4, H4⟩, ⟨%d5, %f5, -, H5⟩, Hk⟩
  subst hf0 hf1 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

/-! ## The proof data -/

/-- The weight tile the body reads at point t: the even-tile window's block at an even point, the odd-tile
    window's at an odd one. -/
def wblk (c : Dev nD) (t : Fin cfg0.N) : Vec F S256x4096 .f32 :=
  if t.val % 2 = 0 then iblk m c 2 t else iblk m c 3 t

/-- The proof data of the pipeline on core c: the arrays as the region finds them; after the body at point t every
    input buffer still at its block and the output buffer at outBlk of the blocks the body read. The two windows on
    x hold it at the two halves of the full share, and so do the two windows on the weight: the body only reads
    them. No invariant beside the windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (wblk m c t) (iblk m c 4 t)
  Φ _ := iprop(emp)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (wblk m c t) (iblk m c 4 t) := by dsimp only [dats]

/-- An input window's current staging buffer holds the window's block at every point, fetched there or not: where
    the pipeline does not fetch, the block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation, at a generic point -/

/-- The resources the body starts from at point t: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- The resources it ends with: the same, each buffer now at what the proof data say the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any point: every input buffer holds its block; the point's parity says which branch runs and which
    weight buffer it reads; the other weight buffer passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 2 = 0
  · have hw : wblk m c t = iblk m c 2 t := if_pos h0
    rw [hw]
    iintro ⟨HΦ, Ho, ⟨%d0, H0⟩, ⟨%d1, H1⟩, ⟨%d2, H2⟩, ⟨%d3, H3⟩, ⟨%d4, H4⟩, ⟨%d5, H5⟩⟩
    iapply (sound_even c Set.univ (grid0.coords t) _ _ _ _ _ _ _ _ _ _ _ _ ((hcond1 t).mpr h0)
      (fun h => by have := (hcond2 t).mp h; omega) (iblk m c 0 t) (iblk m c 1 t) (iblk m c 2 t) (iblk m c 4 t) _)
    isplitl [H0]; · iexact H0
    isplitl [H1]; · iexact H1
    isplitl [H2]; · iexact H2
    isplitl [H4]; · iexact H4
    isplitl [H5]; · iexists _; iexact H5
    iintro ⟨H0, H1, H2, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hw : wblk m c t = iblk m c 3 t := if_neg h0
    rw [hw]
    iintro ⟨HΦ, Ho, ⟨%d0, H0⟩, ⟨%d1, H1⟩, ⟨%d2, H2⟩, ⟨%d3, H3⟩, ⟨%d4, H4⟩, ⟨%d5, H5⟩⟩
    iapply (sound_odd c Set.univ (grid0.coords t) _ _ _ _ _ _ _ _ _ _ _ _
      (fun h => h0 ((hcond1 t).mp h)) ((hcond2 t).mpr (by omega)) (iblk m c 0 t) (iblk m c 1 t) (iblk m c 3 t) (iblk m c 4 t) _)
    isplitl [H0]; · iexact H0
    isplitl [H1]; · iexact H1
    isplitl [H3]; · iexact H3
    isplitl [H4]; · iexact H4
    isplitl [H5]; · iexists _; iexact H5
    iintro ⟨H0, H1, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

end Cert.Kernel.Hand

end
-- ==== Proof.K.Oblig.lean ====
/-
  The body obligation of the printed kernel's pipeline, at every grid point: the body run at the point's
  staging buffers takes every window's buffer from what the pipeline hands it to what the proof data say it holds
  afterwards. The output window is stored into at every point (one of the two branches always runs), so its
  buffer is always handed back at the stored block.
-/
import proofs.«106673_g1915555414388_cont_8to1_1657_17_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every grid point the body meets what the pipeline asks of it. -/
theorem body_obligation (c : Dev nD) : BodyObligation (dats (F := F) m 0 c) (defs₀ (F := F)) Variants.none () Set.univ := fun t => by
  rw [bigSep_W0, bigSep_W0]
  have h5 : cfg0.idle 5 (cfg0.grid.coords t) = false := idle5 t
  rw [h5]
  exact sound_body m c t

end Cert.Kernel.Hand

end
-- ==== Proof.K.Run.lean ====
/-
  The run of the printed kernel's program.

  The launch hands the region every unscoped buffer whole. Four of them are arrays of the pipeline's windows: x is
  read through two windows (its two row-halves) and so is the weight (its even and its odd tiles), so each of those
  two arrays is dealt to its two windows in halves of the full share — both windows only read; the bias row and the
  result array go whole to their one window each. The bias column, which no window stages, goes round the region
  and is read back at the end as it was. So every weakly fair execution of @main terminates, every window's array
  ends at what the library computes from the proof data (an input as it was, the result overwritten block by block
  by what the body stored), and every other buffer as the region found it.
-/
import proofs.«106673_g1915555414388_cont_8to1_1657_17_alg».proof.Proof.K.Oblig
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost state of the proof: a single copy of the algebra that tracks the pipeline's staging cells round by round. -/
abbrev EP : Emb (UR sig nD τ) (MT nD τ sig Unit (Elt F) ℕ (UR sig nD τ) ℕ) := emb₁

/-- Its initial element: each staging cell owned at its first round, and one token for each transfer the pipeline will issue. -/
def u₀ : UR sig nD τ := initOf (Pipeline.cells cfgs cellOf_inj) (Pipeline.launchToks cfgs cellOf_inj)

/-- The four distinct arrays behind the six windows, each whole at the full share, dealt to the windows: x and the
    weight in halves to the two windows that read each, the bias row and the result whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_v1) ↦{fullShare} V m c main_v1)) := by
    unfold Pipeline.arrBufs
    exact bigSep_eq_bigSepL_of_eq [main_arg0, main_arg1, main_v0, main_v1] (by decide) (by decide) _
  rw [hL]
  unfold Dat.arrays
  rw [bigSep_W0]
  rw [(arr_whole0 (0 : Fin 6)).set_eq_univ, (arr_whole0 (2 : Fin 6)).set_eq_univ, (arr_whole0 (4 : Fin 6)).set_eq_univ,
    (arr_whole0 (5 : Fin 6)).set_eq_univ]
  iintro ⟨H0, H1, H2, H3⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  iexact H3

/-- Where every execution ends: each array a window stages holds what the sixteen write-backs make of it, and every
    other buffer outside the kernel's scratch holds what it held when the region started. -/
abbrev Post : PUnit × MemSt nD τ sig (Elt F) → Prop := Pipeline.FramePost cfgs (dats m) 0 (V m)

set_option backward.isDefEq.respectTransparency.types false in
/-- At the compiled mesh, for any float values, from any memory with zero counters: every weakly fair execution of
    @main on the TensorCores terminates, nothing faulting, in a state satisfying Post. -/
theorem run_main : θ_run defs (onTc (τ := τ) (main (F := F))) ⟨m, fun _ => 0, ρ⟩ (Post m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h => h)

/-! ## The run, read at the arrays -/

/-- x ends as launched: the first window stages it and only reads; the reshape before the region does not write it. -/
theorem kept_arg0 (r : PUnit × MemSt nD τ sig (Elt F)) (h : Post m r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- The weight likewise, through the even-tile window. -/
theorem kept_arg1 (r : PUnit × MemSt nD τ sig (Elt F)) (h : Post m r) (c : Dev nD) :
    r.2.mem ((c.tc : Thread nD τ).loc main_arg1) = m ((c.tc : Thread nD τ).loc main_arg1) :=
  ((h c).1 2).trans (((dats m 0 c).arrAt_in 2 rfl _).trans ((A_eq m c 2).trans (V_main_arg1 m c)))
/-- The bias column is no window's array: it goes round the region and is read back as the region found it. -/
theorem kept_arg2 (r : PUnit × MemSt nD τ sig (Elt F)) (h : Post m r) (c : Dev nD) :
    r.2.mem ((c.tc : Thread nD τ).loc main_arg2) = m ((c.tc : Thread nD τ).loc main_arg2) :=
  ((h c).2 main_arg2 (Pipeline.mem_restRefs_of main_arg2 rfl (by decide))).trans (V_main_arg2 m c)
/-- The result array ends at what the library computes from the sixteen write-backs. -/
theorem post_out (r : PUnit × MemSt nD τ sig (Elt F)) (h : Post m r) (c : Dev nD) :
    r.2.mem ((c.tc : Thread nD τ).loc main_v1) = (dats m 0 c).arrAt 5 cfg0.N := (h c).1 5

/-- THE FRAME, at any float values: every weakly fair execution of @main terminates, nothing faulting, with the
    three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_arg0 m r h c, kept_arg1 m r h c, kept_arg2 m r h c⟩) (run_main m ρ)

end Cert.Kernel.Hand

end
-- ==== Proof.KI.Kit.lean ====
/-
  The idealized kernel's region as the launch finds it.

  @main is one host reshape (the bias column [4096, 1] read as a row [1, 4096]) and then the region. This module
  names the contents of every TensorCore buffer when the region is entered (the launch contents after the reshape),
  shows that no argument array is touched by the reshape, names each window's block at a grid point, and decides,
  over the sixteen grid points, the two branch conditions of the body: the first branch is taken exactly at the
  even points and the second exactly at the odd ones, so the output window is stored into at every point.
-/
import proofs.«106673_g1915555414388_cont_8to1_1657_17_alg».proof.Proof.Gen.KernelIdeal.Launch
import proofs.«106673_g1915555414388_cont_8to1_1657_17_alg».proof.Proof.Gen.KernelIdeal.Points
import proofs.«106673_g1915555414388_cont_8to1_1657_17_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- What each TensorCore buffer of core c holds at the moment the region starts: its launch contents, but for the
    bias row, which the reshape has just written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the reshape, then the region entered holding the buffers at V. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: x is as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- the weight is as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- and so is the bias column. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- The part of window w's array that its index map selects at grid point t, the array's contents taken at the start
    of the region. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches, over the grid -/

/-- The first branch is taken exactly at the even points, -/
theorem hcond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second exactly at the odd ones; -/
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
/-- so one of them is taken at every point: the output window is idle nowhere. -/
theorem idle5 : ∀ t : Fin cfg0.N, cfg0.idle 5 (grid0.coords t) = false :=
  (by decide +kernel : ∀ t : Fin grid0.N, idle0 5 (grid0.coords t) = false)

end Cert.KernelIdeal.Hand

end
-- ==== Proof.KI.Body.lean ====
/-
  The body of the idealized kernel at one grid point.

  At a point the body takes one of two branches — the even points read the weight tile staged by the window of
  even tiles, the odd points the one staged by the window of odd tiles — and in either it does the same thing:
  it loads the two row-halves of x (512 rows each, all 4096 columns), the 256 weight rows of the point's tile and
  the 256 bias entries of the tile, and stores into the output block [1024, 256] two pieces: rows 0..511 hold
  (first half of x)·(tile)ᵀ + bias row, rows 512..1023 hold (second half of x)·(tile)ᵀ + bias row. The two
  stores tile the block, so what the block holds afterwards is a function of the four loaded values alone.
-/
import proofs.«106673_g1915555414388_cont_8to1_1657_17_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- A whole half of x, a whole weight tile, a whole bias tile; the upper and the lower half of the output block. -/
abbrev rX : Rect S512x4096 := Rect.unit (s := S512x4096) ![0, 0] S512x4096.size inb_S512x4096_S512x4096_0_0
abbrev rW : Rect S256x4096 := Rect.unit (s := S256x4096) ![0, 0] S256x4096.size inb_S256x4096_S256x4096_0_0
abbrev rB : Rect S1x256 := Rect.unit (s := S1x256) ![0, 0] S1x256.size inb_S1x256_S1x256_0_0
abbrev rLo : Rect S1024x256 := Rect.unit (s := S1024x256) ![0, 0] S512x256.size inb_S1024x256_S512x256_0_0
abbrev rHi : Rect S1024x256 := Rect.unit (s := S1024x256) ![512, 0] S512x256.size inb_S1024x256_S512x256_512_0

/-! ## What the body leaves in the output block -/

/-- The output block after the body, from the two halves of x, the weight tile and the bias tile: the second
    store (rows 512..1023) laid over the first (rows 0..511). -/
def outBlk (x0 x1 : Vec F S512x4096 .f32) (w : Vec F S256x4096 .f32) (b : Vec F S1x256 .f32) : Vec F S1024x256 .f32 :=
  View.canon [⟨rHi, k0_pay2 (View.ld x1 rX) (View.ld w rW) (View.ld b rB)⟩, ⟨rLo, k0_pay1 (View.ld x0 rX) (View.ld w rW) (View.ld b rB)⟩]

/-- The two halves tile the block, so every index of it lies in one of them. -/
theorem cover_out (p1 p0 : Vec F S512x256 .f32) (y : S1024x256.Idx) :
    ∃ pc ∈ ([⟨rHi, p1⟩, ⟨rLo, p0⟩] : List (View.Piece (Elt F) S1024x256 .f32)), y ∈ pc.1.set :=
  View.cover_of_tiled [⟨rHi, p1⟩, ⟨rLo, p0⟩] S512x256.size (by rfl) y

/-! ## The body's triple, branch by branch -/

set_option maxHeartbeats 1000000 in
/-- At a point where the first branch is taken (and the second is not): the body runs on whole staging buffers —
    the halves of x, the even-tile weight buffer and the bias buffer at read contents, the output buffer at
    anything — to the continuation holding the inputs as they were and the output block at outBlk of them. -/
theorem sound_even (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S1x256 .f32) (harg5 : arg5.IsWhole) (arg6 : Memref sig .tc .vmem S1024x256 .f32) (harg6 : arg6.IsWhole)
    (hc1 : k0_cond1 i = 1#1) (hc2 : ¬ k0_cond2 i = 1#1)
    (x0 x1 : Vec F S512x4096 .f32) (w : Vec F S256x4096 .f32) (b : Vec F S1x256 .f32) (K : PUnit → sProp 𝕄) :
    iprop(owns (c : Thread nD τ) arg1 fullShare x0 ∗ owns (c : Thread nD τ) arg2 fullShare x1 ∗ owns (c : Thread nD τ) arg3 fullShare w
        ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg3 fullShare w
            ∗ owns (c : Thread nD τ) arg5 fullShare b ∗ owns (c : Thread nD τ) arg6 fullShare (outBlk x0 x1 w b)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f4, %hf4, H4⟩, ⟨%d5, %f5, -, H5⟩, Hk⟩
  subst hf0 hf1 hf2 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  iexists _; isplitr
  swap; · iexact H5
  ipureintro
  exact View.read_writes_eq_canon _ _ _ (cover_out _ _)

set_option maxHeartbeats 1000000 in
/-- At a point where the second branch is taken (and the first is not): the same, the weight tile read from the
    odd-tile weight buffer. The two branches compute the same function of what they load. -/
theorem sound_odd (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S1x256 .f32) (harg5 : arg5.IsWhole) (arg6 : Memref sig .tc .vmem S1024x256 .f32) (harg6 : arg6.IsWhole)
    (hc1 : ¬ k0_cond1 i = 1#1) (hc2 : k0_cond2 i = 1#1)
    (x0 x1 : Vec F S512x4096 .f32) (w : Vec F S256x4096 .f32) (b : Vec F S1x256 .f32) (K : PUnit → sProp 𝕄) :
    iprop(owns (c : Thread nD τ) arg1 fullShare x0 ∗ owns (c : Thread nD τ) arg2 fullShare x1 ∗ owns (c : Thread nD τ) arg4 fullShare w
        ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg4 fullShare w
            ∗ owns (c : Thread nD τ) arg5 fullShare b ∗ owns (c : Thread nD τ) arg6 fullShare (outBlk x0 x1 w b)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f3, %hf3, H3⟩, ⟨%f4, %hf4, H4⟩, ⟨%d5, %f5, -, H5⟩, Hk⟩
  subst hf0 hf1 hf3 hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

/-! ## The proof data -/

/-- The weight tile the body reads at point t: the even-tile window's block at an even point, the odd-tile
    window's at an odd one. -/
def wblk (c : Dev nD) (t : Fin cfg0.N) : Vec F S256x4096 .f32 :=
  if t.val % 2 = 0 then iblk m c 2 t else iblk m c 3 t

/-- The proof data of the pipeline on core c: the arrays as the region finds them; after the body at point t every
    input buffer still at its block and the output buffer at outBlk of the blocks the body read. The two windows on
    x hold it at the two halves of the full share, and so do the two windows on the weight: the body only reads
    them. No invariant beside the windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (wblk m c t) (iblk m c 4 t)
  Φ _ := iprop(emp)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (wblk m c t) (iblk m c 4 t) := by dsimp only [dats]

/-- An input window's current staging buffer holds the window's block at every point, fetched there or not: where
    the pipeline does not fetch, the block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation, at a generic point -/

/-- The resources the body starts from at point t: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- The resources it ends with: the same, each buffer now at what the proof data say the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any point: every input buffer holds its block; the point's parity says which branch runs and which
    weight buffer it reads; the other weight buffer passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 2 = 0
  · have hw : wblk m c t = iblk m c 2 t := if_pos h0
    rw [hw]
    iintro ⟨HΦ, Ho, ⟨%d0, H0⟩, ⟨%d1, H1⟩, ⟨%d2, H2⟩, ⟨%d3, H3⟩, ⟨%d4, H4⟩, ⟨%d5, H5⟩⟩
    iapply (sound_even c Set.univ (grid0.coords t) _ _ _ _ _ _ _ _ _ _ _ _ ((hcond1 t).mpr h0)
      (fun h => by have := (hcond2 t).mp h; omega) (iblk m c 0 t) (iblk m c 1 t) (iblk m c 2 t) (iblk m c 4 t) _)
    isplitl [H0]; · iexact H0
    isplitl [H1]; · iexact H1
    isplitl [H2]; · iexact H2
    isplitl [H4]; · iexact H4
    isplitl [H5]; · iexists _; iexact H5
    iintro ⟨H0, H1, H2, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hw : wblk m c t = iblk m c 3 t := if_neg h0
    rw [hw]
    iintro ⟨HΦ, Ho, ⟨%d0, H0⟩, ⟨%d1, H1⟩, ⟨%d2, H2⟩, ⟨%d3, H3⟩, ⟨%d4, H4⟩, ⟨%d5, H5⟩⟩
    iapply (sound_odd c Set.univ (grid0.coords t) _ _ _ _ _ _ _ _ _ _ _ _
      (fun h => h0 ((hcond1 t).mp h)) ((hcond2 t).mpr (by omega)) (iblk m c 0 t) (iblk m c 1 t) (iblk m c 3 t) (iblk m c 4 t) _)
    isplitl [H0]; · iexact H0
    isplitl [H1]; · iexact H1
    isplitl [H3]; · iexact H3
    isplitl [H4]; · iexact H4
    isplitl [H5]; · iexists _; iexact H5
    iintro ⟨H0, H1, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Hand

end
-- ==== Proof.KI.Oblig.lean ====
/-
  The body obligation of the idealized kernel's pipeline, at every grid point: the body run at the point's
  staging buffers takes every window's buffer from what the pipeline hands it to what the proof data say it holds
  afterwards. The output window is stored into at every point (one of the two branches always runs), so its
  buffer is always handed back at the stored block.
-/
import proofs.«106673_g1915555414388_cont_8to1_1657_17_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every grid point the body meets what the pipeline asks of it. -/
theorem body_obligation (c : Dev nD) : BodyObligation (dats (F := F) m 0 c) (defs₀ (F := F)) Variants.none () Set.univ := fun t => by
  rw [bigSep_W0, bigSep_W0]
  have h5 : cfg0.idle 5 (cfg0.grid.coords t) = false := idle5 t
  rw [h5]
  exact sound_body m c t

end Cert.KernelIdeal.Hand

end
-- ==== Proof.KI.Run.lean ====
/-
  The run of the idealized kernel's program.

  The launch hands the region every unscoped buffer whole. Four of them are arrays of the pipeline's windows: x is
  read through two windows (its two row-halves) and so is the weight (its even and its odd tiles), so each of those
  two arrays is dealt to its two windows in halves of the full share — both windows only read; the bias row and the
  result array go whole to their one window each. The bias column, which no window stages, goes round the region
  and is read back at the end as it was. So every weakly fair execution of @main terminates, every window's array
  ends at what the library computes from the proof data (an input as it was, the result overwritten block by block
  by what the body stored), and every other buffer as the region found it.
-/
import proofs.«106673_g1915555414388_cont_8to1_1657_17_alg».proof.Proof.KI.Oblig
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ghost state of the proof: a single copy of the algebra that tracks the pipeline's staging cells round by round. -/
abbrev EP : Emb (UR sig nD τ) (MT nD τ sig Unit (Elt F) ℕ (UR sig nD τ) ℕ) := emb₁

/-- Its initial element: each staging cell owned at its first round, and one token for each transfer the pipeline will issue. -/
def u₀ : UR sig nD τ := initOf (Pipeline.cells cfgs cellOf_inj) (Pipeline.launchToks cfgs cellOf_inj)

/-- The four distinct arrays behind the six windows, each whole at the full share, dealt to the windows: x and the
    weight in halves to the two windows that read each, the bias row and the result whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0) ∗ (((c : Thread nD τ).loc main_v1) ↦{fullShare} V m c main_v1)) := by
    unfold Pipeline.arrBufs
    exact bigSep_eq_bigSepL_of_eq [main_arg0, main_arg1, main_v0, main_v1] (by decide) (by decide) _
  rw [hL]
  unfold Dat.arrays
  rw [bigSep_W0]
  rw [(arr_whole0 (0 : Fin 6)).set_eq_univ, (arr_whole0 (2 : Fin 6)).set_eq_univ, (arr_whole0 (4 : Fin 6)).set_eq_univ,
    (arr_whole0 (5 : Fin 6)).set_eq_univ]
  iintro ⟨H0, H1, H2, H3⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  iexact H3

/-- Where every execution ends: each array a window stages holds what the sixteen write-backs make of it, and every
    other buffer outside the kernel's scratch holds what it held when the region started. -/
abbrev Post : PUnit × MemSt nD τ sig (Elt F) → Prop := Pipeline.FramePost cfgs (dats m) 0 (V m)

set_option backward.isDefEq.respectTransparency.types false in
/-- At the compiled mesh, for any float values, from any memory with zero counters: every weakly fair execution of
    @main on the TensorCores terminates, nothing faulting, in a state satisfying Post. -/
theorem run_main : θ_run defs (onTc (τ := τ) (main (F := F))) ⟨m, fun _ => 0, ρ⟩ (Post m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h => h)

/-! ## The run, read at the arrays -/

/-- x ends as launched: the first window stages it and only reads; the reshape before the region does not write it. -/
theorem kept_arg0 (r : PUnit × MemSt nD τ sig (Elt F)) (h : Post m r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- The weight likewise, through the even-tile window. -/
theorem kept_arg1 (r : PUnit × MemSt nD τ sig (Elt F)) (h : Post m r) (c : Dev nD) :
    r.2.mem ((c.tc : Thread nD τ).loc main_arg1) = m ((c.tc : Thread nD τ).loc main_arg1) :=
  ((h c).1 2).trans (((dats m 0 c).arrAt_in 2 rfl _).trans ((A_eq m c 2).trans (V_main_arg1 m c)))
/-- The bias column is no window's array: it goes round the region and is read back as the region found it. -/
theorem kept_arg2 (r : PUnit × MemSt nD τ sig (Elt F)) (h : Post m r) (c : Dev nD) :
    r.2.mem ((c.tc : Thread nD τ).loc main_arg2) = m ((c.tc : Thread nD τ).loc main_arg2) :=
  ((h c).2 main_arg2 (Pipeline.mem_restRefs_of main_arg2 rfl (by decide))).trans (V_main_arg2 m c)
/-- The result array ends at what the library computes from the sixteen write-backs. -/
theorem post_out (r : PUnit × MemSt nD τ sig (Elt F)) (h : Post m r) (c : Dev nD) :
    r.2.mem ((c.tc : Thread nD τ).loc main_v1) = (dats m 0 c).arrAt 5 cfg0.N := (h c).1 5

/-- THE FRAME, at any float values: every weakly fair execution of @main terminates, nothing faulting, with the
    three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_arg0 m r h c, kept_arg1 m r h c, kept_arg2 m r h c⟩) (run_main m ρ)

end Cert.KernelIdeal.Hand

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.KI.PayIdx.lean ====
/-
  The two pieces the body stores, read at an index, at the ideal values.

  Each piece is a product of 512 rows of x (4096 columns) with the 256 weight rows of the tile, every weight row
  contracted with a row of x along the 4096 columns, accumulated from zero, plus the tile's 256 bias entries
  repeated on every row. So at (p, q) — row p of the half of x, weight row q of the tile — the piece holds

      (∑ k, x (p, k) · w (q, k)) + b (0, q).

  The product is read by the lemma for a matrix product whose two operands are both contracted on their second
  axis; its four coordinate facts are read off the product's literal dimension numbers. The bias row is a cast to
  its own shape (the identity) followed by a broadcast of one row over 512.
-/
import proofs.«106673_g1915555414388_cont_8to1_1657_17_alg».proof.Proof.Gen.KernelIdeal.Skeleton
import proofs.«106673_g1915555414388_cont_8to1_1657_17_alg».proof.Proof.LibDotRowsT
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The product's dimension numbers, coordinate by coordinate -/

theorem dot_lhs0 (j : S512x256.Idx) (k : dot_S512x4096_S256x4096_S512x256_1_1_0_0_n_n.contr.Idx) : (dot_S512x4096_S256x4096_S512x256_1_1_0_0_n_n.lhsIdx j k 0).val = (j 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem dot_lhs1 (j : S512x256.Idx) (k : dot_S512x4096_S256x4096_S512x256_1_1_0_0_n_n.contr.Idx) : (dot_S512x4096_S256x4096_S512x256_1_1_0_0_n_n.lhsIdx j k 1).val = (k ⟨0, by decide⟩).val :=
  dot_S512x4096_S256x4096_S512x256_1_1_0_0_n_n.lhsIdx_val_of_single rfl j k
theorem dot_rhs0 (j : S512x256.Idx) (k : dot_S512x4096_S256x4096_S512x256_1_1_0_0_n_n.contr.Idx) : (dot_S512x4096_S256x4096_S512x256_1_1_0_0_n_n.rhsIdx j k 0).val = (j 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem dot_rhs1 (j : S512x256.Idx) (k : dot_S512x4096_S256x4096_S512x256_1_1_0_0_n_n.contr.Idx) : (dot_S512x4096_S256x4096_S512x256_1_1_0_0_n_n.rhsIdx j k 1).val = (k ⟨0, by decide⟩).val :=
  dot_S512x4096_S256x4096_S512x256_1_1_0_0_n_n.rhsIdx_val_of_single rfl j k

/-! ## The pieces at an index -/

/-- The product of 512 rows against the tile's 256 weight rows, from a zero accumulator, at (p, q). -/
theorem tile_product_apply (x : FVec Ideal S512x4096 .f32) (w : FVec Ideal S256x4096 .f32) (p : Fin 512) (q : Fin 256) :
    matmul (F := Ideal) (φ₁ := .f32) (φ₂ := .f32) dot_S512x4096_S256x4096_S512x256_1_1_0_0_n_n none x w (constant (F := Ideal) S512x256 .f32 0x00000000#32) (ix2 p q)
      = ∑ k : Fin 4096, x (ix2 p k) * w (ix2 q k) :=
  matmul_zero_rowsT dot_S512x4096_S256x4096_S512x256_1_1_0_0_n_n none rfl rfl dot_lhs0 dot_lhs1 dot_rhs0 dot_rhs1 x w p q

/-- The bias tile on every row, at (p, q): its entry q. -/
theorem bias_row_apply (b : FVec Ideal S1x256 .f32) (p : Fin 512) (q : Fin 256) :
    broadcastTo S512x256 (shapeCast S1x256 b shapeCasts_S1x256_S1x256) broadcasts_S1x256_S512x256 (ix2 p q) = b (ix2 (0 : Fin 1) q) := by
  rw [shapeCast_self]
  exact broadcastTo_1b_ab_apply b _ p q

/-- The piece stored into the upper half of the output block. -/
theorem pay1_apply (x : Vec Ideal S512x4096 .f32) (w : Vec Ideal S256x4096 .f32) (b : Vec Ideal S1x256 .f32) (p : Fin 512) (q : Fin 256) :
    k0_pay1 (F := Ideal) x w b (ix2 p q) = (∑ k : Fin 4096, x (ix2 p k) * w (ix2 q k)) + b (ix2 (0 : Fin 1) q) := by
  unfold k0_pay1
  exact congrArg₂ (· + ·) (tile_product_apply x w p q) (bias_row_apply b p q)

/-- The piece stored into the lower half: the same function of the other half of x. -/
theorem pay2_apply (x : Vec Ideal S512x4096 .f32) (w : Vec Ideal S256x4096 .f32) (b : Vec Ideal S1x256 .f32) (p : Fin 512) (q : Fin 256) :
    k0_pay2 (F := Ideal) x w b (ix2 p q) = (∑ k : Fin 4096, x (ix2 p k) * w (ix2 q k)) + b (ix2 (0 : Fin 1) q) := by
  unfold k0_pay2
  exact congrArg₂ (· + ·) (tile_product_apply x w p q) (bias_row_apply b p q)

end Cert.KernelIdeal.Hand

end
-- ==== Proof.Spec.lean ====
/-
  The function both programs compute: a linear layer over the extended reals.

  For x with 1024 rows and 4096 columns, a weight with one row of 4096 entries per output feature (4096 features)
  and a bias column with one entry per feature, the result at (b, o) is the inner product of row b of x with row o
  of the weight, plus the bias of feature o:

      out (b, o) = (∑ k, x (b, k) · w (o, k)) + bias (o, 0).

  The kernel computes it in this arrangement (x on the left of each product, the bias added last); the reference
  multiplies each pair the other way round and adds the bias on the left. On the extended reals + and · are
  commutative, at infinities too, so the two arrangements are the same number at every index: nothing is moved
  across the sum and no finiteness is needed.
-/
import Idealize.ShloMosaic.PureOps.Ideal.Laws
import Idealize.ShloMosaic.Lib.ValueIdx

noncomputable section

open scoped BigOperators

namespace LinearLayer

open Idealize.ShloMosaic Idealize.ShloMosaic.ValueIdx

/-- The linear layer, index by index. -/
def out (x : FVec Ideal ⟨2, ![1024, 4096]⟩ .f32) (w : FVec Ideal ⟨2, ![4096, 4096]⟩ .f32) (bias : FVec Ideal ⟨2, ![4096, 1]⟩ .f32) :
    FVec Ideal ⟨2, ![1024, 4096]⟩ .f32 :=
  fun i => (∑ k : Fin 4096, x (ix2 (i 0) k) * w (ix2 (i 1) k)) + bias (ix2 (i 1) (0 : Fin 1))

theorem out_apply (x : FVec Ideal ⟨2, ![1024, 4096]⟩ .f32) (w : FVec Ideal ⟨2, ![4096, 4096]⟩ .f32) (bias : FVec Ideal ⟨2, ![4096, 1]⟩ .f32)
    (b : Fin 1024) (o : Fin 4096) :
    out x w bias (ix2 b o) = (∑ k : Fin 4096, x (ix2 b k) * w (ix2 o k)) + bias (ix2 o (0 : Fin 1)) := rfl

/-- The other arrangement — the bias first, each product with the weight on the left — is the same number. -/
theorem out_comm (x : FVec Ideal ⟨2, ![1024, 4096]⟩ .f32) (w : FVec Ideal ⟨2, ![4096, 4096]⟩ .f32) (bias : FVec Ideal ⟨2, ![4096, 1]⟩ .f32)
    (b : Fin 1024) (o : Fin 4096) :
    bias (ix2 o (0 : Fin 1)) + ∑ k : Fin 4096, w (ix2 o k) * x (ix2 b k) = out x w bias (ix2 b o) := by
  rw [out_apply, add_comm]
  exact congrArg (· + bias (ix2 o (0 : Fin 1))) (Finset.sum_congr rfl fun k _ => mul_comm _ _)

end LinearLayer

end
-- ==== Proof.KI.Value.lean ====
/-
  The result array of the idealized kernel, as one function of the argument arrays.

  Grid point t reads the two row-halves of x (rows 0..511 and 512..1023, all columns), weight rows 256·t .. 256·t+255
  (through the even-tile window when t is even, through the odd-tile window when t is odd: in both cases tile t),
  and bias entries 256·t .. 256·t+255 of the bias row, which is the bias column read in row-major order. It writes
  back the block of all 1024 rows and columns 256·t .. 256·t+255 of the result. Index by index that block is the
  block of the linear layer of the arguments; the sixteen blocks tile the result, so the result array ends at the
  linear layer of the arguments.
-/
import proofs.«106673_g1915555414388_cont_8to1_1657_17_alg».proof.Proof.KI.Body
import proofs.«106673_g1915555414388_cont_8to1_1657_17_alg».proof.Proof.KI.PayIdx
import proofs.«106673_g1915555414388_cont_8to1_1657_17_alg».proof.Proof.Spec
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The index maps over the grid -/

/-- Where each window's block sits at point t: the halves of x at block rows 0 and 1; the weight tile at block row t
    through the window of the point's parity; the bias tile and the result block at block column t. -/
theorem idx_facts : ∀ t : Fin cfg0.N,
    win0_0.index t (0 : Fin 2) = 0 ∧ win0_0.index t (1 : Fin 2) = 0
    ∧ win0_1.index t (0 : Fin 2) = 1 ∧ win0_1.index t (1 : Fin 2) = 0
    ∧ (t.val % 2 = 0 → win0_2.index t (0 : Fin 2) = t.val) ∧ win0_2.index t (1 : Fin 2) = 0
    ∧ (¬ t.val % 2 = 0 → win0_3.index t (0 : Fin 2) = t.val) ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem hz : (![0, 0] : Fin 2 → Nat) = fun _ => 0 := funext fun a => by fin_cases a <;> rfl

/-- The grid has sixteen points. -/
theorem t_lt (t : Fin cfg0.N) : t.val < 16 := lt_of_lt_of_eq t.isLt (show cfg0.N = 16 from N_0)

/-! ## The blocks at coordinates -/

/-- The first half of x: rows 0..511. -/
theorem xlo_apply (c : Dev nD) (t : Fin cfg0.N) (p : Fin 512) (k : Fin 4096) :
    iblk m c 0 t (ix2 p k) = V m c main_arg0 (ix2 ⟨p.val, by omega⟩ k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = p.val; omega
  | ⟨1, _⟩ => show win0_0.index t (1 : Fin 2) * 4096 + 1 * k.val = k.val; omega

/-- The second half of x: rows 512..1023. -/
theorem xhi_apply (c : Dev nD) (t : Fin cfg0.N) (p : Fin 512) (k : Fin 4096) :
    iblk m c 1 t (ix2 p k) = V m c main_arg0 (ix2 ⟨512 + p.val, by omega⟩ k) := by
  obtain ⟨-, -, e0, e1, -⟩ := idx_facts t
  show V m c main_arg0 (((cfg0.win 1).blk t).view.emb (ix2 p k)) = _
  refine congrArg (V m c main_arg0) (funext fun a => Fin.ext ?_)
  match a with
  | ⟨0, _⟩ => show win0_1.index t (0 : Fin 2) * 512 + 1 * p.val = 512 + p.val; omega
  | ⟨1, _⟩ => show win0_1.index t (1 : Fin 2) * 4096 + 1 * k.val = k.val; omega

/-- The weight tile the body reads at point t is tile t, whichever window staged it. -/
theorem wblk_apply (c : Dev nD) (t : Fin cfg0.N) (q : Fin 256) (k : Fin 4096) :
    wblk m c t (ix2 q k) = V m c main_arg1 (ix2 ⟨256 * t.val + q.val, by have := t_lt t; omega⟩ k) := by
  obtain ⟨-, -, -, -, e2, e2', e3, e3', -⟩ := idx_facts t
  unfold wblk
  by_cases h0 : t.val % 2 = 0
  · rw [if_pos h0]
    have e := e2 h0
    show V m c main_arg1 (((cfg0.win 2).blk t).view.emb (ix2 q k)) = _
    refine congrArg (V m c main_arg1) (funext fun a => Fin.ext ?_)
    match a with
    | ⟨0, _⟩ => show win0_2.index t (0 : Fin 2) * 256 + 1 * q.val = 256 * t.val + q.val; omega
    | ⟨1, _⟩ => show win0_2.index t (1 : Fin 2) * 4096 + 1 * k.val = k.val; omega
  · rw [if_neg h0]
    have e := e3 h0
    show V m c main_arg1 (((cfg0.win 3).blk t).view.emb (ix2 q k)) = _
    refine congrArg (V m c main_arg1) (funext fun a => Fin.ext ?_)
    match a with
    | ⟨0, _⟩ => show win0_3.index t (0 : Fin 2) * 256 + 1 * q.val = 256 * t.val + q.val; omega
    | ⟨1, _⟩ => show win0_3.index t (1 : Fin 2) * 4096 + 1 * k.val = k.val; omega

/-- The bias row the region finds is the bias column in row-major order: entry (0, o) is entry (o, 0). -/
theorem brow_apply (c : Dev nD) (o : Fin 4096) :
    V m c main_v0 (ix2 (0 : Fin 1) o) = V m c main_arg2 (ix2 o (0 : Fin 1)) := by
  have e : (V m c main_v0 : S1x4096.Idx → Elt Ideal .f32)
      = shapeCast S1x4096 (m ((c : Thread nD τ).loc main_arg2)) shapeCasts_S4096x1_S1x4096 := by
    dsimp only [V, hostOps0]; after_results; rfl
  rw [e, V_main_arg2]
  refine shapeCast_apply (s := S4096x1) (t := S1x4096) _ _ _ _ ?_
  show (S4096x1.rowMajor (ix2 o (0 : Fin 1))).val = (S1x4096.rowMajor (ix2 (0 : Fin 1) o)).val
  rw [Shape.rowMajor_val_two, Shape.rowMajor_val_two]
  show o.val * 1 + 0 = 0 * 4096 + o.val
  omega

/-- The bias tile at point t: entries 256·t .. 256·t+255 of the bias column. -/
theorem btile_apply (c : Dev nD) (t : Fin cfg0.N) (q : Fin 256) :
    iblk m c 4 t (ix2 (0 : Fin 1) q) = V m c main_arg2 (ix2 ⟨256 * t.val + q.val, by have := t_lt t; omega⟩ (0 : Fin 1)) := by
  obtain ⟨-, -, -, -, -, -, -, -, e0, e1, -⟩ := idx_facts t
  rw [← brow_apply]
  show V m c main_v0 (((cfg0.win 4).blk t).view.emb (ix2 (0 : Fin 1) q)) = _
  refine congrArg (V m c main_v0) (funext fun a => Fin.ext ?_)
  match a with
  | ⟨0, _⟩ => show win0_4.index t (0 : Fin 2) * 1 + 1 * 0 = 0; omega
  | ⟨1, _⟩ => show win0_4.index t (1 : Fin 2) * 256 + 1 * q.val = 256 * t.val + q.val; omega

/-! ## What a point writes back -/

/-- The linear layer of the arrays as the region finds them. -/
abbrev layer (c : Dev nD) : S1024x4096.Idx → Elt Ideal .f32 :=
  LinearLayer.out (V m c main_arg0) (V m c main_arg1) (V m c main_arg2)

/-- An index of the result block at point t, in the result array: row r, column 256·t + q. -/
theorem oblk_emb (t : Fin cfg0.N) (r : Fin 1024) (q : Fin 256) :
    ((cfg0.win 5).blk t).view.emb (ix2 r q) = ix2 r ⟨256 * t.val + q.val, by have := t_lt t; omega⟩ := by
  obtain ⟨-, -, -, -, -, -, -, -, -, -, e0, e1⟩ := idx_facts t
  refine funext fun a => Fin.ext ?_
  match a with
  | ⟨0, _⟩ => show win0_5.index t (0 : Fin 2) * 1024 + 1 * r.val = r.val; omega
  | ⟨1, _⟩ => show win0_5.index t (1 : Fin 2) * 256 + 1 * q.val = 256 * t.val + q.val; omega

/-- The block that grid point t writes back is block t of the linear layer: its upper half from the first half of x,
    the lower half from the second, each entry the inner product of a row of x with a weight row of tile t plus
    that row's bias. -/
theorem flushed_eq (c : Dev nD) (t : Fin cfg0.N) :
    (dats m 0 c).flushed 5 t = ((cfg0.win 5).blk t).view.read (Elt Ideal) (layer m c) := by
  show (cfg0.win 5).cut (grid0.coords t) ((dats m 0 c).after 5 t) = _
  rw [after_5]
  funext j
  show outBlk (iblk m c 0 t) (iblk m c 1 t) (wblk m c t) (iblk m c 4 t) j = layer m c (((cfg0.win 5).blk t).view.emb j)
  unfold outBlk
  refine View.canon_apply_of_pieces (fun y => layer m c (((cfg0.win 5).blk t).view.emb y)) _ ?_ j (cover_out _ _ j)
  intro pc hpc x
  rcases List.mem_cons.mp hpc with rfl | hpc
  · obtain ⟨p, q, rfl⟩ : ∃ (p : Fin 512) (q : Fin 256), x = ix2 p q := ⟨x 0, x 1, eq_ix2 x⟩
    show k0_pay2 (View.ld (iblk m c 1 t) rX) (View.ld (wblk m c t) rW) (View.ld (iblk m c 4 t) rB) (ix2 p q)
      = layer m c (((cfg0.win 5).blk t).view.emb (rHi.emb (ix2 p q)))
    rw [View.ld_unit_zero (S := S512x4096) hz, View.ld_unit_zero (S := S256x4096) hz, View.ld_unit_zero (S := S1x256) hz, pay2_apply]
    have er : rHi.emb (ix2 p q) = ix2 (⟨512 + p.val, by omega⟩ : Fin 1024) q := funext fun a => Fin.ext (by
      match a with
      | ⟨0, _⟩ => show 512 + 1 * p.val = 512 + p.val; omega
      | ⟨1, _⟩ => show 0 + 1 * q.val = q.val; omega)
    rw [er, oblk_emb, btile_apply]
    show _ = LinearLayer.out (V m c main_arg0) (V m c main_arg1) (V m c main_arg2) (ix2 _ _)
    rw [LinearLayer.out_apply]
    exact congrArg (· + _) (Finset.sum_congr rfl fun k _ => by rw [xhi_apply, wblk_apply])
  · rcases List.mem_singleton.mp hpc with rfl
    obtain ⟨p, q, rfl⟩ : ∃ (p : Fin 512) (q : Fin 256), x = ix2 p q := ⟨x 0, x 1, eq_ix2 x⟩
    show k0_pay1 (View.ld (iblk m c 0 t) rX) (View.ld (wblk m c t) rW) (View.ld (iblk m c 4 t) rB) (ix2 p q)
      = layer m c (((cfg0.win 5).blk t).view.emb (rLo.emb (ix2 p q)))
    rw [View.ld_unit_zero (S := S512x4096) hz, View.ld_unit_zero (S := S256x4096) hz, View.ld_unit_zero (S := S1x256) hz, pay1_apply]
    have er : rLo.emb (ix2 p q) = ix2 (⟨p.val, by omega⟩ : Fin 1024) q := funext fun a => Fin.ext (by
      match a with
      | ⟨0, _⟩ => show 0 + 1 * p.val = p.val; omega
      | ⟨1, _⟩ => show 0 + 1 * q.val = q.val; omega)
    rw [er, oblk_emb, btile_apply]
    show _ = LinearLayer.out (V m c main_arg0) (V m c main_arg1) (V m c main_arg2) (ix2 _ _)
    rw [LinearLayer.out_apply]
    exact congrArg (· + _) (Finset.sum_congr rfl fun k _ => by rw [xlo_apply, wblk_apply])

/-! ## The sixteen blocks tile the result -/

/-- Membership in point t's block, axis by axis: the coordinate lies between the window's block index times the
    block's extent and that plus the extent. -/
theorem mem_oblk (t : Fin cfg0.N) (i : S1024x4096.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v1).slice (win0_5.rect t)).set ↔ _
  rw [View.set_slice_whole, Rect.mem_set_unit]
  exact Iff.rfl

/-- Every index of the result lies in the block of the point its column's tile names. -/
theorem covered (i : S1024x4096.Idx) :
    ∃ t : Fin cfg0.N, (cfg0.win 5).flush t = true ∧ i ∈ ((cfg0.win 5).blk t).view.set := by
  have hi0 : (i 0).val < 1024 := (i 0).isLt
  have hi1 : (i 1).val < 4096 := (i 1).isLt
  let t : Fin cfg0.N := ⟨(i 1).val / 256, by rw [show cfg0.N = 16 from N_0]; omega⟩
  obtain ⟨-, -, -, -, -, -, -, -, -, -, e0, e1⟩ := idx_facts t
  have ht : t.val = (i 1).val / 256 := rfl
  refine ⟨t, flush0_5 t, ?_⟩
  rw [mem_oblk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- After the run the result array holds the linear layer of the arrays the region started from. -/
theorem final (c : Dev nD) : (dats m 0 c).arrAt 5 cfg0.N = layer m c :=
  (dats m 0 c).arrAt_eq_of_cover 5 (layer m c) (fun t _ => flushed_eq m c t) (covered)

end Cert.KernelIdeal.Hand

end
-- ==== Proof.RefRead.lean ====
/-
  The reference's result is the linear layer.

  The reference transposes x, multiplies the weight by it (each entry a sum over the 4096 input features of a
  weight entry times an entry of x), adds the bias column broadcast along the batch axis on the left, and transposes
  back. Read at (b, o) through the two transposes that is

      bias (o, 0) + ∑ k, w (o, k) · x (b, k),

  the linear layer with each product and the outer sum written the other way round.
-/
import proofs.«106673_g1915555414388_cont_8to1_1657_17_alg».proof.Proof.Gen.ReferenceIdeal.Read
import proofs.«106673_g1915555414388_cont_8to1_1657_17_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's last stage, as a function of the three arguments, is the linear layer of them. -/
theorem result_eq (x : (⟨S1024x4096, .f32⟩ : BufTy).Contents (Elt Ideal)) (w : (⟨S4096x4096, .f32⟩ : BufTy).Contents (Elt Ideal))
    (bias : (⟨S4096x1, .f32⟩ : BufTy).Contents (Elt Ideal)) :
    val_main_v4 (F := Ideal) x w bias = LinearLayer.out x w bias := by
  funext i
  obtain ⟨b, o, rfl⟩ : ∃ (b : Fin 1024) (o : Fin 4096), i = ix2 b o := ⟨i 0, i 1, eq_ix2 i⟩
  have e2 : idx_main_v2 (idx_main_v4 (ix2 b o)) = ix2 o (0 : Fin 1) :=
    funext fun a => Fin.ext (by match a with | ⟨0, _⟩ => rfl | ⟨1, _⟩ => rfl)
  have el : ∀ k : Fin 4096, lidx_main_v1 (idx_main_v4 (ix2 b o)) k = ix2 o k := fun k =>
    funext fun a => Fin.ext (by match a with | ⟨0, _⟩ => rfl | ⟨1, _⟩ => rfl)
  have er : ∀ k : Fin 4096, idx_main_v0 (ridx_main_v1 (idx_main_v4 (ix2 b o)) k) = ix2 b k := fun k =>
    funext fun a => Fin.ext (by match a with | ⟨0, _⟩ => rfl | ⟨1, _⟩ => rfl)
  rw [val_main_v4_apply, val_main_v3_apply, val_main_v2_apply, val_main_v1_apply, e2]
  simp only [val_main_v0_apply, el, er]
  exact LinearLayer.out_comm x w bias b o

end Cert.ReferenceIdeal.RefValue

end
-- ==== Proof.lean ====
/-
  A linear layer, out = x · weightᵀ + bias, computed by a tiled kernel and by a plain reference: the proof that the
  two agree on the extended reals.

  The kernel walks the 4096 output features in sixteen tiles of 256. At each tile it multiplies the two row-halves
  of x (512 rows each, all 4096 input features) by the tile's 256 weight rows, every product one sum over the 4096
  input features from a zero accumulator, adds the tile's 256 bias entries on every row, and writes the two halves
  into the result's columns of the tile. x is handed to the kernel twice (its two halves) and so is the weight (its
  even and its odd tiles, read alternately); both are only read, so each of those arrays is dealt to its two readers
  in halves of one share. The reference transposes x, multiplies the weight by it, adds the bias column on the left
  and transposes back.

  Index by index both are  out (b, o) = (∑ k, x (b, k) · w (o, k)) + bias (o, 0)  up to the order of each product's
  factors and of the outer sum's two terms: commutativity of + and · on the extended reals, which holds at
  infinities too, so the precondition that the inputs are finite is never opened. The kernel's idealization rewrote
  no operation, so that it is the kernel's sanctioned idealization says nothing more. The three frame conjuncts are
  the three programs' runs with the results dropped.
-/
import proofs.«106673_g1915555414388_cont_8to1_1657_17_alg».proof.Defs
import proofs.«106673_g1915555414388_cont_8to1_1657_17_alg».proof.Proof.Gen.Kernel
import proofs.«106673_g1915555414388_cont_8to1_1657_17_alg».proof.Proof.Gen.KernelIdeal
import proofs.«106673_g1915555414388_cont_8to1_1657_17_alg».proof.Proof.Gen.ReferenceIdeal
import proofs.«106673_g1915555414388_cont_8to1_1657_17_alg».proof.Proof.Gen.Pre_finite_inputs
import proofs.«106673_g1915555414388_cont_8to1_1657_17_alg».proof.Proof.Gen.ReferenceIdeal.Run
import proofs.«106673_g1915555414388_cont_8to1_1657_17_alg».proof.Proof.Gen.ReferenceIdeal.Read
import proofs.«106673_g1915555414388_cont_8to1_1657_17_alg».proof.Proof.K.Run
import proofs.«106673_g1915555414388_cont_8to1_1657_17_alg».proof.Proof.KI.Run
import proofs.«106673_g1915555414388_cont_8to1_1657_17_alg».proof.Proof.KI.Value
import proofs.«106673_g1915555414388_cont_8to1_1657_17_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its three arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on x, the weight and the bias, both idealized programs end with the linear layer of the
    three in their result arrays. -/
theorem algebraic : Cert.algebraic_KernelIdeal_ReferenceIdeal := by
  intro m ρ m' ρ' _ hagree
  refine ⟨fun c => LinearLayer.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, Cert.KernelIdeal.Hand.kept_arg0 m r h c,
      Cert.KernelIdeal.Hand.kept_arg1 m r h c, Cert.KernelIdeal.Hand.kept_arg2 m r h c⟩) (Cert.KernelIdeal.Hand.run_main (F := Ideal) m ρ)
    refine (Cert.KernelIdeal.Hand.post_out m r h c).trans ((Cert.KernelIdeal.Hand.final m c).trans ?_)
    show LinearLayer.out (Cert.KernelIdeal.Hand.V m c Cert.KernelIdeal.main_arg0) (Cert.KernelIdeal.Hand.V m c Cert.KernelIdeal.main_arg1)
      (Cert.KernelIdeal.Hand.V m c Cert.KernelIdeal.main_arg2) = _
    rw [Cert.KernelIdeal.Hand.V_main_arg0, Cert.KernelIdeal.Hand.V_main_arg1, Cert.KernelIdeal.Hand.V_main_arg2]
  · refine (θ_run Cert.ReferenceIdeal.defs _ _).mono (fun r h c => ⟨?_, (h c).2⟩) (Cert.ReferenceIdeal.Value.run (F := Ideal) m' ρ')
    rw [(h c).1, Cert.ReferenceIdeal.Read.val_main_v4_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
